-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S64 : Shape := ⟨1, ![64]⟩
abbrev S1x64 : Shape := ⟨2, ![1, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_

variable [Facts]

def fn {F : FTy → Type} [FloatOps F] (main_arg0 : FVec F S1000000x64 .f32) (main_arg1 : FVec F S64 .f32) (main_arg2 : FVec F S1x64 .f32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  main_v13
-- ==== Kernel.lean ====
abbrev S1000000x64 : Shape := ⟨2, ![1000000, 64]⟩
abbrev S64 : Shape := ⟨1, ![64]⟩
abbrev S1x64 : Shape := ⟨2, ![1, 64]⟩
abbrev S500000x128 : Shape := ⟨2, ![500000, 128]⟩
abbrev S2x64 : Shape := ⟨2, ![2, 64]⟩
abbrev S128 : Shape := ⟨1, ![128]⟩
abbrev S_ : Shape := ⟨0, ![]⟩
abbrev S1x128 : Shape := ⟨2, ![1, 128]⟩
abbrev S500000x2 : Shape := ⟨2, ![500000, 2]⟩
abbrev S10000x128 : Shape := ⟨2, ![10000, 128]⟩
abbrev S10000x2 : Shape := ⟨2, ![10000, 2]⟩
abbrev S2000x128 : Shape := ⟨2, ![2000, 128]⟩
abbrev S2000 : Shape := ⟨1, ![2000]⟩
abbrev S2000x1 : Shape := ⟨2, ![2000, 1]⟩
abbrev S1000000x1 : Shape := ⟨2, ![1000000, 1]⟩

abbrev nBuf : Space → Nat
  | .hbm => 13
  | .vmem => 7
  | .smem => 0
  | _ => 0

abbrev bufTy : (tb : Table) → Fin (tcTables nBuf tb) → BufTy
  | .hbm, ⟨0, _⟩ => ⟨S1000000x64, .f32⟩
  | .hbm, ⟨1, _⟩ => ⟨S64, .f32⟩
  | .hbm, ⟨2, _⟩ => ⟨S1x64, .f32⟩
  | .hbm, ⟨3, _⟩ => ⟨S500000x128, .f32⟩
  | .hbm, ⟨4, _⟩ => ⟨S1x64, .f32⟩
  | .hbm, ⟨5, _⟩ => ⟨S2x64, .f32⟩
  | .hbm, ⟨6, _⟩ => ⟨S128, .f32⟩
  | .hbm, ⟨7, _⟩ => ⟨S_, .f32⟩
  | .hbm, ⟨8, _⟩ => ⟨S1x64, .f32⟩
  | .hbm, ⟨9, _⟩ => ⟨S1x128, .f32⟩
  | .hbm, ⟨10, _⟩ => ⟨S1x128, .f32⟩
  | .hbm, ⟨11, _⟩ => ⟨S500000x2, .f32⟩
  | .hbm, ⟨12, _⟩ => ⟨S1000000x1, .f32⟩
  | .local _ .vmem, ⟨0, _⟩ => ⟨S10000x128, .f32⟩
  | .local _ .vmem, ⟨1, _⟩ => ⟨S10000x128, .f32⟩
  | .local _ .vmem, ⟨2, _⟩ => ⟨S128, .f32⟩
  | .local _ .vmem, ⟨3, _⟩ => ⟨S1x128, .f32⟩
  | .local _ .vmem, ⟨4, _⟩ => ⟨S1x128, .f32⟩
  | .local _ .vmem, ⟨5, _⟩ => ⟨S10000x2, .f32⟩
  | .local _ .vmem, ⟨6, _⟩ => ⟨S10000x2, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![50], ![false]⟩

@[reducible] def k0_t1_loop : Scf.Loop 32 :=
  let c0_i32 : BitVec 32 := 0#32
  let c5_i32 : BitVec 32 := 5#32
  let v5 : BitVec 32 := Scalar.addi c0_i32 c5_i32
  let c1_i32 : BitVec 32 := 1#32
  ⟨c0_i32, v5, c1_i32⟩
def k0_mult1 (k0_t1 : Fin k0_t1_loop.trips) : BitVec 32 :=
  let c0_i32_6 : BitVec 32 := 0#32
  let c0_i32 : BitVec 32 := 0#32
  let c1_i32 : BitVec 32 := 1#32
  let arg6 : BitVec 32 := Scf.iv c0_i32 c1_i32 k0_t1
  let c1_i32_5 : BitVec 32 := 1#32
  let v6 : BitVec 32 := Scalar.muli arg6 c1_i32_5
  let v7 : BitVec 32 := Scalar.addi c0_i32_6 v6
  let c2000_i32 : BitVec 32 := 2000#32
  let v8 : BitVec 32 := Scalar.muli v7 c2000_i32
  v8
def k0_off1 (k0_t1 : Fin k0_t1_loop.trips) : Fin 2 → Nat :=
  let c0_i32_6 : BitVec 32 := 0#32
  let c0_i32 : BitVec 32 := 0#32
  let c1_i32 : BitVec 32 := 1#32
  let arg6 : BitVec 32 := Scf.iv c0_i32 c1_i32 k0_t1
  let c1_i32_5 : BitVec 32 := 1#32
  let v6 : BitVec 32 := Scalar.muli arg6 c1_i32_5
  let v7 : BitVec 32 := Scalar.addi c0_i32_6 v6
  let c2000_i32 : BitVec 32 := 2000#32
  let v8 : BitVec 32 := Scalar.muli v7 c2000_i32
  let v9 : BitVec 32 := v8
  let v10 : Index := Scalar.indexCast v9
  let c0_7 : Index := 0#32
  ![v10.toNat, 0]
def k0_off2 (k0_t1 : Fin k0_t1_loop.trips) : Fin 2 → Nat :=
  let c0_i32_6 : BitVec 32 := 0#32
  let c0_i32 : BitVec 32 := 0#32
  let c1_i32 : BitVec 32 := 1#32
  let arg6 : BitVec 32 := Scf.iv c0_i32 c1_i32 k0_t1
  let c1_i32_5 : BitVec 32 := 1#32
  let v6 : BitVec 32 := Scalar.muli arg6 c1_i32_5
  let v7 : BitVec 32 := Scalar.addi c0_i32_6 v6
  let c2000_i32 : BitVec 32 := 2000#32
  let v8 : BitVec 32 := Scalar.muli v7 c2000_i32
  let v9 : BitVec 32 := v8
  let v29 : Index := Scalar.indexCast v9
  let c0_10 : Index := 0#32
  ![v29.toNat, 0]
def k0_off3 (k0_t1 : Fin k0_t1_loop.trips) : Fin 2 → Nat :=
  let c0_i32_6 : BitVec 32 := 0#32
  let c0_i32 : BitVec 32 := 0#32
  let c1_i32 : BitVec 32 := 1#32
  let arg6 : BitVec 32 := Scf.iv c0_i32 c1_i32 k0_t1
  let c1_i32_5 : BitVec 32 := 1#32
  let v6 : BitVec 32 := Scalar.muli arg6 c1_i32_5
  let v7 : BitVec 32 := Scalar.addi c0_i32_6 v6
  let c2000_i32 : BitVec 32 := 2000#32
  let v8 : BitVec 32 := Scalar.muli v7 c2000_i32
  let v9 : BitVec 32 := v8
  let v32 : Index := Scalar.indexCast v9
  let c1 : Index := 1#32
  ![v32.toNat, 1]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1000000x64_S500000x128 : S1000000x64.ShapeCasts S500000x128
  shapeCasts_S64_S1x64 : S64.ShapeCasts S1x64
  bcast_S1x64_S2x64_0_1 : S1x64.BroadcastsInDim S2x64 (![0, 1] : Fin 2 → Fin S2x64.rank)
  shapeCasts_S2x64_S128 : S2x64.ShapeCasts S128
  bcast_S_S1x64 : S_.BroadcastsInDim S1x64 (![] : Fin 0 → Fin S1x64.rank)
  concatenates_S1x64_S1x64_S1x128_d1 : Shape.Concatenates [S1x64, S1x64] S1x128 1
  inb_S128_S128_0 : ∀ a, (![0] : Fin 1 → Nat) a + S128.size a ≤ S128.size a
  h_S128 : 0 < S128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  h_S2000x128 : 0 < S2000x128.numel
  shapeCasts_S2000x128_S2000x128 : S2000x128.ShapeCasts S2000x128
  shapeCasts_S128_S1x128 : S128.ShapeCasts S1x128
  broadcasts_S1x128_S2000x128 : S1x128.Broadcasts S2000x128
  reduces_S2000x128_S2000 : S2000x128.Reduces [1] S2000
  shapeCasts_S2000_S2000x1 : S2000.ShapeCasts S2000x1
  h_S2000x1 : 0 < S2000x1.numel
  shapeCasts_S500000x2_S1000000x1 : S500000x2.ShapeCasts S1000000x1
  hrank0 : 0 < grid0.rank
  k0_t1_ok : k0_t1_loop.OK
  k0_mult1_dvd : ∀ k0_t1 : Fin k0_t1_loop.trips, 2000 ∣ (k0_mult1 k0_t1).toNat
  k0_off1_inb : ∀ k0_t1 : Fin k0_t1_loop.trips, ∀ a, (k0_off1 k0_t1) a + S2000x128.size a ≤ S10000x128.size a
  k0_off2_inb : ∀ k0_t1 : Fin k0_t1_loop.trips, ∀ a, (k0_off2 k0_t1) a + S2000x1.size a ≤ S10000x2.size a
  k0_off3_inb : ∀ k0_t1 : Fin k0_t1_loop.trips, ∀ a, (k0_off3 k0_t1) a + S2000x1.size a ≤ S10000x2.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S500000x128.size a
  hwx0_0 : ∀ i : grid0.Coords, EltTy.bits .f32 = 32 ∨ (Rect.block (s := S500000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S128.size a
  hwx0_1 : ∀ i : grid0.Coords, EltTy.bits .f32 = 32 ∨ (Rect.block (s := S128) S128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x2.size a ≤ S500000x2.size a
  hwx0_4 : ∀ i : grid0.Coords, EltTy.bits .f32 = 32 ∨ (Rect.block (s := S500000x2) S10000x2.size (cc0_transform_4 i) (hinb0_4 i)).WholeWords (EltTy.packing .f32)

variable [Facts₀]

abbrev win0_0 : Pipeline.Window sig grid0 :=
  Pipeline.Window.ofSpec (Memref.whole main_v0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S10000x2.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1000000x64 : Shape := ⟨2, ![1000000, 64]⟩
abbrev S64 : Shape := ⟨1, ![64]⟩
abbrev S1x64 : Shape := ⟨2, ![1, 64]⟩
abbrev S_ : Shape := ⟨0, ![]⟩
abbrev S64x1 : Shape := ⟨2, ![64, 1]⟩
abbrev S1000000x1 : Shape := ⟨2, ![1000000, 1]⟩

abbrev nBuf : Space → Nat
  | .hbm => 14
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S64, .f32⟩
  | .hbm, ⟨2, _⟩ => ⟨S1x64, .f32⟩
  | .hbm, ⟨3, _⟩ => ⟨S1x64, .f32⟩
  | .hbm, ⟨4, _⟩ => ⟨S1000000x64, .f32⟩
  | .hbm, ⟨5, _⟩ => ⟨S1000000x64, .f32⟩
  | .hbm, ⟨6, _⟩ => ⟨S1000000x64, .f32⟩
  | .hbm, ⟨7, _⟩ => ⟨S_, .f32⟩
  | .hbm, ⟨8, _⟩ => ⟨S1000000x64, .f32⟩
  | .hbm, ⟨9, _⟩ => ⟨S1000000x64, .f32⟩
  | .hbm, ⟨10, _⟩ => ⟨S1000000x64, .f32⟩
  | .hbm, ⟨11, _⟩ => ⟨S64x1, .f32⟩
  | .hbm, ⟨12, _⟩ => ⟨S1000000x1, .f32⟩
  | .hbm, ⟨13, _⟩ => ⟨S1000000x1, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  transposes_S1x64_S64x1_1_0 : S1x64.Transposes [1, 0] S64x1
  dot_S1000000x64_S64x1_S1000000x1_1_0_0_1_n_n_wf : DotDims.WF S1000000x64 S64x1 S1000000x1 [1] [0] [0] [1] [] []

variable [Facts₀]

def dot_S1000000x64_S64x1_S1000000x1_1_0_0_1_n_n : DotDims S1000000x64 S64x1 S1000000x1 where
  lhsContracting := [1]
  rhsContracting := [0]
  lhsNonContracting := [0]
  rhsNonContracting := [1]
  lhsBatch := []
  rhsBatch := []
  wf := dot_S1000000x64_S64x1_S1000000x1_1_0_0_1_n_n_wf

class Facts : Prop extends Facts₀ where

variable [Facts]
-- ==== Proof.Spec.lean ====
/-
  The function both programs compute, and the identity between their two arrangements of a row's sum.

  Row `n` of `X ∈ [-∞, ∞]^(1000000 × 64)`, with scales `w ∈ [-∞, ∞]^64` and exponents `λ ∈ [-∞, ∞]^(1 × 64)`, gives

      exp( Σ_{k < 64}  log(|X[n, k] · w[k]| + ε) · λ[0, k] ),

  the product `Π_k (|w_k · X[n, k]| + ε)^(λ_k)` written through logarithms; `ε` is the binary32 number nearest `1e-10`.
  One program sums a row's 64 terms directly. The other lays rows `2R` and `2R + 1` side by side in 128 lanes (lane `l`
  holds `X[2R + l / 64, l % 64]`, scaled by `w[l % 64]`) and sums all 128 lanes against exponents that are `λ[0, l % 64]`
  on the wanted row's half and `0` on the other half. On the extended reals `a · 0 = 0` for EVERY `a` (also at `±∞`), so the
  64 foreign terms vanish and the lane sum is the row's sum: no finiteness of the inputs is used.
-/
import Idealize.ShloMosaic.PureOps.Ideal
import Idealize.ShloMosaic.Lib.ValueIdx

noncomputable section

open scoped BigOperators

namespace Cert.PowerProduct

open Idealize.ShloMosaic Idealize.ShloMosaic.ValueIdx

/-- `ε`: the extended real the binary32 pattern of `1e-10` denotes. -/
abbrev eps : EReal := Ideal.ofBits .f32 0x2EDBE6FF#32

/-- One factor's logarithm: `log(|x · w| + ε)`, the absolute value as `max a (-a)`. -/
def logAbs (x w : EReal) : EReal := Ideal.log (max (x * w) (-(x * w)) + eps)

/-- The float operations' spelling of `logAbs` at the ideal instance (every operation there is its extended-real one). -/
theorem ops_eq_logAbs (x w : Ideal .f32) :
    FloatOps.log (FloatOps.addf (FloatOps.absf (FloatOps.mulf x w)) (FloatOps.ofBits (F := Ideal) .f32 0x2EDBE6FF#32)) = logAbs x w := rfl

/-- Row `n`'s value. -/
def row (X : (⟨2, ![1000000, 64]⟩ : Shape).Idx → EReal) (W : (⟨1, ![64]⟩ : Shape).Idx → EReal)
    (L : (⟨2, ![1, 64]⟩ : Shape).Idx → EReal) (n : Fin 1000000) : EReal :=
  Ideal.exp (∑ k : Fin 64, logAbs (X (ix2 n k)) (W (ix1 k)) * L (ix2 (0 : Fin 1) k))

/-- The result array `[1000000, 1]`: entry `(n, 0)` is row `n`'s value. -/
def result (X : (⟨2, ![1000000, 64]⟩ : Shape).Idx → EReal) (W : (⟨1, ![64]⟩ : Shape).Idx → EReal)
    (L : (⟨2, ![1, 64]⟩ : Shape).Idx → EReal) : (⟨2, ![1000000, 1]⟩ : Shape).Idx → EReal :=
  fun i => row X W L ⟨(i 0).val, idx2_lt0 i⟩

/-- The same values laid out two to a row, `[500000, 2]`: entry `(R, h)` is row `2R + h`'s value. -/
def packed (X : (⟨2, ![1000000, 64]⟩ : Shape).Idx → EReal) (W : (⟨1, ![64]⟩ : Shape).Idx → EReal)
    (L : (⟨2, ![1, 64]⟩ : Shape).Idx → EReal) : (⟨2, ![500000, 2]⟩ : Shape).Idx → EReal :=
  fun j => row X W L ⟨2 * (j 0).val + (j 1).val, by have := idx2_lt0 j; have := idx2_lt1 j; omega⟩

/-- A sum over 128 lanes is the sum over the low 64 plus the sum over the high 64. -/
theorem sum_lanes (f : Fin 128 → EReal) :
    ∑ l : Fin 128, f l = ∑ k : Fin 64, f ⟨k.val, by omega⟩ + ∑ k : Fin 64, f ⟨64 + k.val, by omega⟩ :=
  Fin.sum_univ_add (a := 64) (b := 64) f

/-- THE IDENTITY. The 128-lane sum of packed row `R` against exponents that live on half `h` only is row `2R + h`'s
    64-term sum: the other half's terms are `a · 0 = 0`. -/
theorem lanes_eq_row (X : (⟨2, ![1000000, 64]⟩ : Shape).Idx → EReal) (W : (⟨1, ![64]⟩ : Shape).Idx → EReal)
    (L : (⟨2, ![1, 64]⟩ : Shape).Idx → EReal) (R : Fin 500000) (h : Fin 2) (xp wp lp : Fin 128 → EReal)
    (hx : ∀ l : Fin 128, xp l = X (ix2 (⟨2 * R.val + l.val / 64, by omega⟩ : Fin 1000000) (⟨l.val % 64, by omega⟩ : Fin 64)))
    (hw : ∀ l : Fin 128, wp l = W (ix1 (⟨l.val % 64, by omega⟩ : Fin 64)))
    (hl : ∀ l : Fin 128, lp l = if l.val / 64 = h.val then L (ix2 (0 : Fin 1) (⟨l.val % 64, by omega⟩ : Fin 64)) else 0) :
    Ideal.exp (∑ l : Fin 128, logAbs (xp l) (wp l) * lp l) = row X W L ⟨2 * R.val + h.val, by omega⟩ := by
  unfold row
  refine congrArg Ideal.exp ?_
  rw [sum_lanes]
  have hlo : ∀ k : Fin 64, logAbs (xp ⟨k.val, by omega⟩) (wp ⟨k.val, by omega⟩) * lp ⟨k.val, by omega⟩
      = if h.val = 0 then logAbs (X (ix2 (⟨2 * R.val + 0, by omega⟩ : Fin 1000000) k)) (W (ix1 k)) * L (ix2 (0 : Fin 1) k) else 0 := by
    intro k
    rw [hx, hw, hl]
    have e1 : k.val / 64 = 0 := by omega
    have e2 : k.val % 64 = k.val := by omega
    simp only [e1, e2]
    by_cases hh : h.val = 0
    · rw [if_pos hh, if_pos hh.symm]
    · rw [if_neg hh, if_neg (fun e => hh e.symm), mul_zero]
  have hhi : ∀ k : Fin 64, logAbs (xp ⟨64 + k.val, by omega⟩) (wp ⟨64 + k.val, by omega⟩) * lp ⟨64 + k.val, by omega⟩
      = if h.val = 1 then logAbs (X (ix2 (⟨2 * R.val + 1, by omega⟩ : Fin 1000000) k)) (W (ix1 k)) * L (ix2 (0 : Fin 1) k) else 0 := by
    intro k
    rw [hx, hw, hl]
    have e1 : (64 + k.val) / 64 = 1 := by omega
    have e2 : (64 + k.val) % 64 = k.val := by omega
    simp only [e1, e2]
    by_cases hh : h.val = 1
    · rw [if_pos hh, if_pos hh.symm]
    · rw [if_neg hh, if_neg (fun e => hh e.symm), mul_zero]
  rw [Finset.sum_congr rfl (fun k _ => hlo k), Finset.sum_congr rfl (fun k _ => hhi k)]
  have h2 : h.val = 0 ∨ h.val = 1 := by omega
  rcases h2 with hh | hh
  · have hne : ¬ h.val = 1 := by omega
    simp only [hh, (by decide : ¬ (0 : ℕ) = 1), if_true, if_false, Finset.sum_const_zero, add_zero]
  · have hne : ¬ h.val = 0 := by omega
    simp only [hh, (by decide : ¬ (1 : ℕ) = 0), if_true, if_false, Finset.sum_const_zero, zero_add]

end Cert.PowerProduct

end
-- ==== Proof.RefTerm.lean ====
/-
  The reference's result, read index by index.

  The reference multiplies X by the scales broadcast along rows, takes log(|·| + ε) elementwise, contracts the 64
  columns against the transposed exponents, and exponentiates. Read at entry (n, 0) this is
  exp(Σ_k log(|X[n,k]·w[k]| + ε) · λ[0,k]), which is row n's value.
-/
import proofs.«127066_j89747636617463_2_alg».proof.Defs
import proofs.«127066_j89747636617463_2_alg».proof.Proof.Gen.ReferenceIdeal.Run
import proofs.«127066_j89747636617463_2_alg».proof.Proof.Gen.ReferenceIdeal.Read
import proofs.«127066_j89747636617463_2_alg».proof.Proof.Spec

noncomputable section

open scoped BigOperators

namespace Cert.PowerProduct.Ref

open Idealize.ShloMosaic Idealize.ShloMosaic.ValueIdx Cert.ReferenceIdeal Cert.ReferenceIdeal.Gen

/-- The scales, broadcast to the whole array, read at (n, k): w[k]. -/
theorem scale_apply (x1 : (⟨S64, .f32⟩ : BufTy).Contents (Elt Ideal)) (n : Fin 1000000) (k : Fin 64) :
    Cert.ReferenceIdeal.Read.val_main_v1 (F := Ideal) x1 (ix2 n k) = x1 (ix1 k) := by
  rw [Cert.ReferenceIdeal.Read.val_main_v1_apply, Cert.ReferenceIdeal.Read.val_main_v0_apply]
  refine congrArg x1 (funext fun a => Fin.ext ?_)
  match a with
  | ⟨0, _⟩ => rfl

/-- The logarithm factor read at (n, k): log(|X[n,k]·w[k]| + ε). -/
theorem factor_apply (x0 : (⟨S1000000x64, .f32⟩ : BufTy).Contents (Elt Ideal)) (x1 : (⟨S64, .f32⟩ : BufTy).Contents (Elt Ideal))
    (n : Fin 1000000) (k : Fin 64) :
    Cert.ReferenceIdeal.Read.val_main_v6 (F := Ideal) x0 x1 (ix2 n k) = logAbs (x0 (ix2 n k)) (x1 (ix1 k)) := by
  rw [Cert.ReferenceIdeal.Read.val_main_v6_apply, Cert.ReferenceIdeal.Read.val_main_v5_apply,
    Cert.ReferenceIdeal.Read.val_main_v3_apply, Cert.ReferenceIdeal.Read.val_main_v2_apply,
    Cert.ReferenceIdeal.Read.val_main_v4_apply, Cert.ReferenceIdeal.Read.val_main_cst_apply, scale_apply]
  exact ops_eq_logAbs _ _

/-- The transposed exponents read at (k, 0): λ[0, k]. -/
theorem expo_apply (x2 : (⟨S1x64, .f32⟩ : BufTy).Contents (Elt Ideal)) (i : S1000000x1.Idx) (k : Fin 64) :
    Cert.ReferenceIdeal.Read.val_main_v7 (F := Ideal) x2 (Cert.ReferenceIdeal.Read.ridx_main_v8 i k) = x2 (ix2 (0 : Fin 1) k) := by
  rw [Cert.ReferenceIdeal.Read.val_main_v7_apply]
  refine congrArg x2 (funext fun a => Fin.ext ?_)
  match a with
  | ⟨0, _⟩ => show (i 1).val = 0; have := idx2_lt1 i; omega
  | ⟨1, _⟩ => rfl

/-- The reference's result is the result array of the specification. -/
theorem result_eq (x0 : (⟨S1000000x64, .f32⟩ : BufTy).Contents (Elt Ideal)) (x1 : (⟨S64, .f32⟩ : BufTy).Contents (Elt Ideal))
    (x2 : (⟨S1x64, .f32⟩ : BufTy).Contents (Elt Ideal)) :
    Cert.ReferenceIdeal.Read.val_main_v9 (F := Ideal) x0 x1 x2 = Cert.PowerProduct.result x0 x1 x2 := by
  funext i
  rw [Cert.ReferenceIdeal.Read.val_main_v9_apply, Cert.ReferenceIdeal.Read.val_main_v8_apply]
  show Ideal.exp _ = Ideal.exp _
  refine congrArg Ideal.exp (Finset.sum_congr rfl fun k _ => ?_)
  have hl : Cert.ReferenceIdeal.Read.lidx_main_v8 i k = ix2 (⟨(i 0).val, idx2_lt0 i⟩ : Fin 1000000) k :=
    funext fun a => Fin.ext (by match a with | ⟨0, _⟩ => rfl | ⟨1, _⟩ => rfl)
  rw [hl, factor_apply, expo_apply]

end Cert.PowerProduct.Ref

end
-- ==== Proof.ChunkValue.lean ====
/-
  One chunk of the kernel's body, read at an index.

  The body works on 2000 packed rows at a time. From the chunk `x ∈ [-∞, ∞]^(2000 × 128)`, the lane scales `s ∈ [-∞, ∞]^128`
  and a row of lane exponents `e ∈ [-∞, ∞]^(1 × 128)` it forms `log(|x · s| + ε)` lane by lane, multiplies by the exponents,
  sums each row's 128 lanes and exponentiates. Read at row `r` this is

      exp( Σ_{l < 128}  log(|x[r, l] · s[l]| + ε) · e[0, l] ).

  The same term with the low-half exponents and with the high-half exponents gives the two columns the body stores.
  The lane sum is a plain finite sum on the extended reals (no rounding, no order), the row vectors are broadcast
  along the rows, and the sum's result `[2000]` is cast to a column `[2000, 1]`.
-/
import proofs.«127066_j89747636617463_2_alg».proof.Proof.Gen.KernelIdeal.Skeleton
import proofs.«127066_j89747636617463_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.PowerProduct.Chunk

open Idealize.ShloMosaic Idealize.ShloMosaic.ValueIdx Cert.KernelIdeal Cert.KernelIdeal.Gen Cert.PowerProduct

/-- The lane scales `[128]`, cast to one row `[1, 128]` and repeated along the 2000 rows: entry `(r, l)` is `s[l]`. -/
theorem lane_scale (v0 : Vec Ideal S128 .f32) (r : Fin 2000) (l : Fin 128) :
    broadcastTo S2000x128 (shapeCast S1x128 v0 shapeCasts_S128_S1x128) broadcasts_S1x128_S2000x128 (ix2 r l) = v0 (ix1 l) := by
  rw [broadcastTo_1b_ab_apply, shapeCast_a_1a_apply]

/-- A row of lane exponents `[1, 128]` repeated along the 2000 rows: entry `(r, l)` is `e[0, l]`. -/
theorem lane_weight (v1 : Vec Ideal S1x128 .f32) (r : Fin 2000) (l : Fin 128) :
    broadcastTo S2000x128 (shapeCast S1x128 v1 shapeCasts_S1x128_S1x128) broadcasts_S1x128_S2000x128 (ix2 r l) = v1 (ix2 (0 : Fin 1) l) := by
  rw [broadcastTo_1b_ab_apply, shapeCast_self]

/-- The logarithm factor of the chunk at `(r, l)`: `log(|x[r, l] · s[l]| + ε)`. -/
theorem logFactor_apply (v0 : Vec Ideal S128 .f32) (v11 : Vec Ideal S2000x128 .f32) (r : Fin 2000) (l : Fin 128) :
    k0_pay1 (F := Ideal) v0 v11 (ix2 r l) = logAbs (v11 (ix2 r l)) (v0 (ix1 l)) := by
  unfold k0_pay1
  rw [shapeCast_self]
  show logAbs (v11 (ix2 r l))
    (broadcastTo S2000x128 (shapeCast S1x128 v0 shapeCasts_S128_S1x128) broadcasts_S1x128_S2000x128 (ix2 r l)) = _
  rw [lane_scale]

/-- The index of lane `l` over row `r` of the reduced vector: `(r, l)`. -/
theorem lift_lane (h : S2000x128.Reduces [1] S2000) (r : Fin 2000) (l : Fin 128) :
    h.lift (ix1 r) l = ix2 r l := by
  funext c
  match c with
  | ⟨0, _⟩ => rfl
  | ⟨1, _⟩ => rfl

/-- A vector `[2000]` cast to a column `[2000, 1]`: entry `(r, 0)` is entry `r`. -/
theorem column_apply (v : FVec Ideal S2000 .f32) (r : Fin 2000) :
    shapeCast S2000x1 v shapeCasts_S2000_S2000x1 (ix2 r (0 : Fin 1)) = v (ix1 r) :=
  shapeCast_apply v shapeCasts_S2000_S2000x1 (ix2 r (0 : Fin 1)) (ix1 r) (by
    rw [Shape.rowMajor_val_one, Shape.rowMajor_val_two]
    show r.val = r.val * 1 + 0
    omega)

/-- The first stored column of a chunk, at row `r`: the exponential of the row's lane sum against the exponents `v1`. -/
theorem lowColumn_apply (v0 : Vec Ideal S128 .f32) (v1 : Vec Ideal S1x128 .f32) (v11 : Vec Ideal S2000x128 .f32) (r : Fin 2000) :
    k0_pay2 (F := Ideal) v0 v1 v11 (ix2 r (0 : Fin 1))
      = Ideal.exp (∑ l : Fin 128, logAbs (v11 (ix2 r l)) (v0 (ix1 l)) * v1 (ix2 (0 : Fin 1) l)) := by
  unfold k0_pay2
  refine congrArg Ideal.exp ?_
  refine (column_apply _ r).trans ?_
  refine (Ideal.multiReduction_add_single _ _ _ _ _ (ix1 r)).trans ?_
  show ∑ l : Fin 128, mulf (k0_pay1 v0 v11)
      (broadcastTo S2000x128 (shapeCast S1x128 v1 shapeCasts_S1x128_S1x128) broadcasts_S1x128_S2000x128)
      (reduces_S2000x128_S2000.lift (ix1 r) l) = _
  refine Finset.sum_congr rfl fun l _ => ?_
  rw [lift_lane]
  show k0_pay1 v0 v11 (ix2 r l) * broadcastTo S2000x128 (shapeCast S1x128 v1 shapeCasts_S1x128_S1x128) broadcasts_S1x128_S2000x128 (ix2 r l) = _
  rw [logFactor_apply, lane_weight]

/-- The second stored column of a chunk, at row `r`: the same with the exponents `v3`. -/
theorem highColumn_apply (v0 : Vec Ideal S128 .f32) (v3 : Vec Ideal S1x128 .f32) (v11 : Vec Ideal S2000x128 .f32) (r : Fin 2000) :
    k0_pay3 (F := Ideal) v0 v3 v11 (ix2 r (0 : Fin 1))
      = Ideal.exp (∑ l : Fin 128, logAbs (v11 (ix2 r l)) (v0 (ix1 l)) * v3 (ix2 (0 : Fin 1) l)) := by
  unfold k0_pay3
  refine congrArg Ideal.exp ?_
  refine (column_apply _ r).trans ?_
  refine (Ideal.multiReduction_add_single _ _ _ _ _ (ix1 r)).trans ?_
  show ∑ l : Fin 128, mulf (k0_pay1 v0 v11)
      (broadcastTo S2000x128 (shapeCast S1x128 v3 shapeCasts_S1x128_S1x128) broadcasts_S1x128_S2000x128)
      (reduces_S2000x128_S2000.lift (ix1 r) l) = _
  refine Finset.sum_congr rfl fun l _ => ?_
  rw [lift_lane]
  show k0_pay1 v0 v11 (ix2 r l) * broadcastTo S2000x128 (shapeCast S1x128 v3 shapeCasts_S1x128_S1x128) broadcasts_S1x128_S2000x128 (ix2 r l) = _
  rw [logFactor_apply, lane_weight]

end Cert.PowerProduct.Chunk

end
-- ==== Proof.BodyValue.lean ====
/-
  What the kernel's body leaves in its output block, as one function of its four input blocks.

  The body walks its block of 10000 packed rows in five chunks of 2000 rows. Chunk `k` reads rows `2000k … 2000k + 1999`
  of the input block and stores two columns of 2000 entries: into column 0 the exponentiated lane sums against the
  low-half exponents, into column 1 those against the high-half exponents, both at rows `2000k …`. The ten stored
  rectangles tile the `[10000, 2]` block, and every one of them is the restriction of ONE function of the block index,

      (r, h)  ↦  exp( Σ_{l < 128}  log(|x[r, l] · s[l]| + ε) · e_h[0, l] ),      e_0 = low-half, e_1 = high-half exponents,

  so the block the body leaves is that function (whatever the order of the stores).
-/
import proofs.«127066_j89747636617463_2_alg».proof.Proof.Gen.KernelIdeal.Frame
import proofs.«127066_j89747636617463_2_alg».proof.Proof.ChunkValue

set_option maxRecDepth 16384

noncomputable section

open scoped BigOperators

namespace Cert.PowerProduct.Body

open Idealize.ShloMosaic Idealize.ShloMosaic.ValueIdx Idealize.ShloMosaic.TcCoe Idealize.SL.Sem
open Cert.KernelIdeal Cert.KernelIdeal.Gen Cert.PowerProduct

/-- Row `r` of a block against one row of lane exponents. -/
def blockRow (x0 : Vec Ideal S10000x128 .f32) (x1 : Vec Ideal S128 .f32) (e : Vec Ideal S1x128 .f32) (r : Fin 10000) : EReal :=
  Ideal.exp (∑ l : Fin 128, logAbs (x0 (ix2 r l)) (x1 (ix1 l)) * e (ix2 (0 : Fin 1) l))

/-- The output block `[10000, 2]`: column 0 against the exponents `x2`, column 1 against `x3`. -/
def blockValue (x0 : Vec Ideal S10000x128 .f32) (x1 : Vec Ideal S128 .f32) (x2 x3 : Vec Ideal S1x128 .f32) : S10000x2.Idx → EReal :=
  fun y => blockRow x0 x1 (if (y 1).val = 0 then x2 else x3) ⟨(y 0).val, idx2_lt0 y⟩

theorem zero1 : (![0] : Fin 1 → Nat) = fun _ => 0 := funext fun a => by fin_cases a; rfl
theorem zero2 : (![0, 0] : Fin 2 → Nat) = fun _ => 0 := funext fun a => by fin_cases a <;> rfl

/-- ONE TRIP's stores, read off the loop's run: column 1 then column 0 of chunk `k`, each the chunk's payload. -/
theorem trip_pieces (c : Dev nD) (i : grid0.Coords) (arg1 : Memref sig .tc .vmem S10000x128 .f32) (harg1 : arg1.IsWhole) (arg2 : Memref sig .tc .vmem S128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S10000x2 .f32) (harg5 : arg5.IsWhole)
    (v0 : Vec Ideal S128 .f32) (v1 : Vec Ideal S1x128 .f32) (v3 : Vec Ideal S1x128 .f32) (X : BufTy.Contents (Elt Ideal) arg1.view.ty) (k : Fin k0_t1_loop.trips) :
    tripL_k0_t1 (F := Ideal) Variants.none c none i arg1 harg1 arg2 harg2 arg3 harg3 arg4 harg4 arg5 harg5 v0 v1 v3 X k
      = [⟨Rect.unit (s := S10000x2) (k0_off3 k) S2000x1.size (k0_off3_inb k),
            k0_pay3 v0 v3 (View.readAt (Elt Ideal) arg1.view (Rect.unit (s := S10000x128) (k0_off1 k) S2000x128.size (k0_off1_inb k)).toLoadRect X)⟩,
         ⟨Rect.unit (s := S10000x2) (k0_off2 k) S2000x1.size (k0_off2_inb k),
            k0_pay2 v0 v1 (View.readAt (Elt Ideal) arg1.view (Rect.unit (s := S10000x128) (k0_off1 k) S2000x128.size (k0_off1_inb k)).toLoadRect X)⟩] := by
  unfold tripL_k0_t1 trip_k0_t1
  rfl

/-- A property of every piece of every trip holds of every piece stored before trip `n`. -/
theorem pieces_before (c : Dev nD) (i : grid0.Coords) (arg1 : Memref sig .tc .vmem S10000x128 .f32) (harg1 : arg1.IsWhole) (arg2 : Memref sig .tc .vmem S128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S10000x2 .f32) (harg5 : arg5.IsWhole)
    (v0 : Vec Ideal S128 .f32) (v1 : Vec Ideal S1x128 .f32) (v3 : Vec Ideal S1x128 .f32) (X : BufTy.Contents (Elt Ideal) arg1.view.ty)
    (P : View.Piece (Elt Ideal) S10000x2 .f32 → Prop)
    (hP : ∀ k : Fin k0_t1_loop.trips, ∀ p ∈ tripL_k0_t1 (F := Ideal) Variants.none c none i arg1 harg1 arg2 harg2 arg3 harg3 arg4 harg4 arg5 harg5 v0 v1 v3 X k, P p) :
    ∀ n : ℕ, ∀ p ∈ pb_k0_t1 (F := Ideal) Variants.none c none i arg1 harg1 arg2 harg2 arg3 harg3 arg4 harg4 arg5 harg5 v0 v1 v3 X n, P p
  | 0 => by
    intro p hp
    rw [pb_k0_t1.eq_1] at hp
    exact absurd hp List.not_mem_nil
  | n + 1 => by
    intro p hp
    rw [pb_k0_t1.eq_2] at hp
    unfold pb_k0_t1Step at hp
    split at hp
    · rcases List.mem_append.mp hp with h | h
      · exact hP _ p h
      · exact pieces_before c i arg1 harg1 arg2 harg2 arg3 harg3 arg4 harg4 arg5 harg5 v0 v1 v3 X P hP n p h
    · exact pieces_before c i arg1 harg1 arg2 harg2 arg3 harg3 arg4 harg4 arg5 harg5 v0 v1 v3 X P hP n p hp

/-- Chunk `k`'s load of the input block: entry `(r, l)` is the block's entry `(2000k + r, l)`. -/
theorem chunk_apply (arg1 : Memref sig .tc .vmem S10000x128 .f32) (harg1 : arg1.IsWhole) (x0 : Vec Ideal S10000x128 .f32)
    (k : Fin k0_t1_loop.trips) (r : Fin 2000) (l : Fin 128) :
    View.readAt (Elt Ideal) arg1.view (Rect.unit (s := S10000x128) (k0_off1 k) S2000x128.size (k0_off1_inb k)).toLoadRect (harg1.unread x0) (ix2 r l)
      = x0 (ix2 (⟨2000 * k.val + r.val, by have := k.isLt; have := k0_t1_abs.2.1; omega⟩ : Fin 10000) l) := by
  rw [View.readAt_eq_ld, harg1.read_unread]
  show x0 ((Rect.unit (s := S10000x128) (k0_off1 k) S2000x128.size (k0_off1_inb k)).idx (ix2 r l)) = _
  refine congrArg x0 (funext fun a => Fin.ext ?_)
  match a with
  | ⟨0, _⟩ =>
    show (k0_off1 k) 0 + 1 * r.val = 2000 * k.val + r.val
    rw [k0_off1_eq]
    show 2000 * k.val + 1 * r.val = _
    omega
  | ⟨1, _⟩ =>
    show (k0_off1 k) 1 + 1 * l.val = l.val
    rw [k0_off1_eq]
    show 0 + 1 * l.val = _
    omega

/-- Chunk `k`'s column-0 store is the block function on its rectangle (rows `2000k …`, column 0). -/
theorem low_piece (x0 : Vec Ideal S10000x128 .f32) (x1 : Vec Ideal S128 .f32) (x2 x3 : Vec Ideal S1x128 .f32)
    (k : Fin k0_t1_loop.trips) (chunk : Vec Ideal S2000x128 .f32)
    (hchunk : ∀ (r : Fin 2000) (l : Fin 128), chunk (ix2 r l)
      = x0 (ix2 (⟨2000 * k.val + r.val, by have := k.isLt; have := k0_t1_abs.2.1; omega⟩ : Fin 10000) l))
    (x : (⟨2, ![2000, 1]⟩ : Shape).Idx) :
    k0_pay2 (F := Ideal) x1 x2 chunk x
      = blockValue x0 x1 x2 x3 ((Rect.unit (s := S10000x2) (k0_off2 k) S2000x1.size (k0_off2_inb k)).emb x) := by
  obtain ⟨r, z, rfl⟩ : ∃ (r : Fin 2000) (z : Fin 1), x = ix2 r z := ⟨x 0, x 1, eq_ix2 x⟩
  obtain rfl : z = 0 := Subsingleton.elim _ _
  rw [Chunk.lowColumn_apply]
  have e0 : (((Rect.unit (s := S10000x2) (k0_off2 k) S2000x1.size (k0_off2_inb k)).emb (ix2 r (0 : Fin 1))) 0).val
      = 2000 * k.val + r.val := by
    show (k0_off2 k) 0 + 1 * r.val = _
    rw [k0_off2_eq]
    show 2000 * k.val + 1 * r.val = _
    omega
  have e1 : (((Rect.unit (s := S10000x2) (k0_off2 k) S2000x1.size (k0_off2_inb k)).emb (ix2 r (0 : Fin 1))) 1).val = 0 := by
    show (k0_off2 k) 1 + 1 * 0 = 0
    rw [k0_off2_eq]
    rfl
  unfold blockValue
  show _ = blockRow x0 x1 (if (((Rect.unit (s := S10000x2) (k0_off2 k) S2000x1.size (k0_off2_inb k)).emb (ix2 r (0 : Fin 1))) 1).val = 0 then x2 else x3) _
  rw [if_pos e1]
  have hrow : (⟨2000 * k.val + r.val, by have := k.isLt; have := k0_t1_abs.2.1; omega⟩ : Fin 10000)
      = ⟨(((Rect.unit (s := S10000x2) (k0_off2 k) S2000x1.size (k0_off2_inb k)).emb (ix2 r (0 : Fin 1))) 0).val, idx2_lt0 _⟩ :=
    Fin.ext e0.symm
  refine Eq.trans ?_ (congrArg (blockRow x0 x1 x2) hrow)
  unfold blockRow
  refine congrArg Ideal.exp (Finset.sum_congr rfl fun l _ => ?_)
  rw [hchunk]

/-- Chunk `k`'s column-1 store is the block function on its rectangle (rows `2000k …`, column 1). -/
theorem high_piece (x0 : Vec Ideal S10000x128 .f32) (x1 : Vec Ideal S128 .f32) (x2 x3 : Vec Ideal S1x128 .f32)
    (k : Fin k0_t1_loop.trips) (chunk : Vec Ideal S2000x128 .f32)
    (hchunk : ∀ (r : Fin 2000) (l : Fin 128), chunk (ix2 r l)
      = x0 (ix2 (⟨2000 * k.val + r.val, by have := k.isLt; have := k0_t1_abs.2.1; omega⟩ : Fin 10000) l))
    (x : (⟨2, ![2000, 1]⟩ : Shape).Idx) :
    k0_pay3 (F := Ideal) x1 x3 chunk x
      = blockValue x0 x1 x2 x3 ((Rect.unit (s := S10000x2) (k0_off3 k) S2000x1.size (k0_off3_inb k)).emb x) := by
  obtain ⟨r, z, rfl⟩ : ∃ (r : Fin 2000) (z : Fin 1), x = ix2 r z := ⟨x 0, x 1, eq_ix2 x⟩
  obtain rfl : z = 0 := Subsingleton.elim _ _
  rw [Chunk.highColumn_apply]
  have e0 : (((Rect.unit (s := S10000x2) (k0_off3 k) S2000x1.size (k0_off3_inb k)).emb (ix2 r (0 : Fin 1))) 0).val
      = 2000 * k.val + r.val := by
    show (k0_off3 k) 0 + 1 * r.val = _
    rw [k0_off3_eq]
    show 2000 * k.val + 1 * r.val = _
    omega
  have e1 : ¬ (((Rect.unit (s := S10000x2) (k0_off3 k) S2000x1.size (k0_off3_inb k)).emb (ix2 r (0 : Fin 1))) 1).val = 0 := by
    show ¬ (k0_off3 k) 1 + 1 * 0 = 0
    rw [k0_off3_eq]
    show ¬ (1 + 1 * 0 = 0)
    omega
  unfold blockValue
  show _ = blockRow x0 x1 (if (((Rect.unit (s := S10000x2) (k0_off3 k) S2000x1.size (k0_off3_inb k)).emb (ix2 r (0 : Fin 1))) 1).val = 0 then x2 else x3) _
  rw [if_neg e1]
  have hrow : (⟨2000 * k.val + r.val, by have := k.isLt; have := k0_t1_abs.2.1; omega⟩ : Fin 10000)
      = ⟨(((Rect.unit (s := S10000x2) (k0_off3 k) S2000x1.size (k0_off3_inb k)).emb (ix2 r (0 : Fin 1))) 0).val, idx2_lt0 _⟩ :=
    Fin.ext e0.symm
  refine Eq.trans ?_ (congrArg (blockRow x0 x1 x3) hrow)
  unfold blockRow
  refine congrArg Ideal.exp (Finset.sum_congr rfl fun l _ => ?_)
  rw [hchunk]

/-- THE BLOCK the body leaves: the run's ten stores tile the block and each is the block function on its rectangle. -/
theorem out_eq (c : Dev nD) (i : grid0.Coords) (arg1 : Memref sig .tc .vmem S10000x128 .f32) (harg1 : arg1.IsWhole) (arg2 : Memref sig .tc .vmem S128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S10000x2 .f32) (harg5 : arg5.IsWhole)
    (x0 : Vec Ideal S10000x128 .f32) (x1 : Vec Ideal S128 .f32) (x2 x3 : Vec Ideal S1x128 .f32) :
    out0_A_4 (F := Ideal) c i arg1 harg1 arg2 harg2 arg3 harg3 arg4 harg4 arg5 harg5 x0 x1 x2 x3 = blockValue x0 x1 x2 x3 := by
  funext y
  unfold out0_A_4
  rw [View.read_writes_eq_canon _ _ _ (cover0_A_4 c i arg1 harg1 arg2 harg2 arg3 harg3 arg4 harg4 arg5 harg5 x0 x1 x2 x3)]
  refine View.canon_apply_of_pieces (blockValue x0 x1 x2 x3) _ ?_ y (cover0_A_4 c i arg1 harg1 arg2 harg2 arg3 harg3 arg4 harg4 arg5 harg5 x0 x1 x2 x3 y)
  unfold kernelRun0_A
  dsimp only
  simp only [View.readAt_eq_ld, harg2.read_unread, harg3.read_unread, harg4.read_unread,
    View.ld_unit_zero (S := S128) zero1, View.ld_unit_zero (S := S1x128) zero2]
  refine pieces_before c i arg1 harg1 arg2 harg2 arg3 harg3 arg4 harg4 arg5 harg5 x1 x2 x3 (harg1.unread x0)
    (fun p => ∀ x : p.1.shape.Idx, p.2 x = blockValue x0 x1 x2 x3 (p.1.emb x)) ?_ _
  intro k p hp
  rw [trip_pieces] at hp
  rcases List.mem_cons.mp hp with rfl | hp
  · intro x
    exact high_piece x0 x1 x2 x3 k _ (chunk_apply arg1 harg1 x0 k) x
  · rcases List.mem_cons.mp hp with rfl | hp
    · intro x
      exact low_piece x0 x1 x2 x3 k _ (chunk_apply arg1 harg1 x0 k) x
    · exact absurd hp List.not_mem_nil

end Cert.PowerProduct.Body

end
-- ==== Proof.HostPrefix.lean ====
/-
  What the packed program's host operations hand to its grid of blocks, read at an index.

  Before the grid runs the program rearranges its three arguments `X ∈ [-∞, ∞]^(1000000 × 64)`, `w ∈ [-∞, ∞]^64` and
  `λ ∈ [-∞, ∞]^(1 × 64)` into four arrays:

    * `X` reshaped to `[500000, 128]`: row-major positions are kept, and position `128 R + l` is
      `64 (2R + l / 64) + l % 64`, so entry `(R, l)` is `X[2R + l / 64, l % 64]`;
    * `w` laid out twice in `128` lanes (`[64] → [1, 64] → [2, 64] → [128]`): lane `l` holds `w[l % 64]`;
    * `λ` followed by `64` zeros: lane `l` holds `λ[0, l % 64]` when `l / 64 = 0` and `0` otherwise;
    * `64` zeros followed by `λ`: lane `l` holds `λ[0, l % 64]` when `l / 64 = 1` and `0` otherwise.

  Each array is first written as a term of the three arguments (`v0_eq` … `v6_eq`: every operation's result buffer
  holds its function's value of its operands' buffers) and then read at an index by the index lemmas of the shape
  operations (a reshape keeps the row-major position, a broadcast reads the operand at the named axes, a two-piece
  concatenation reads the piece the axis coordinate falls in).
-/
import proofs.«127066_j89747636617463_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.PowerProduct.HostPrefix

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ) (c : Dev nD)

/-- The program's first argument as core `c` is launched with it: `X`. -/
abbrev argX : S1000000x64.Idx → EReal := m ((c : Thread nD τ).loc main_arg0)
/-- Its second argument: the scales `w`. -/
abbrev argW : S64.Idx → EReal := m ((c : Thread nD τ).loc main_arg1)
/-- Its third argument: the exponents `λ`. -/
abbrev argL : S1x64.Idx → EReal := m ((c : Thread nD τ).loc main_arg2)

/-- The `[1, 64]` array of zeros the exponents are padded with: the scalar zero word, broadcast. -/
abbrev zeros : S1x64.Idx → EReal :=
  broadcastInDim S1x64 ![] bcast_S_S1x64 (constant (F := Ideal) S_ .f32 0x00000000#32)

/-- Every entry of the padding is the extended real `0`. -/
theorem zeros_apply (i : S1x64.Idx) : zeros i = 0 := by
  refine (broadcastInDim_apply (![] : Fin 0 → Fin S1x64.rank) bcast_S_S1x64 (constant (F := Ideal) S_ .f32 0x00000000#32) i ix0
    (fun a => a.elim0)).trans ?_
  rw [constant_apply, Idealize.ShloMosaic.Ideal.ofBits_zero_f32]

/-! ## The four arrays as terms of the arguments -/

/-- `X` reshaped to two rows a line. -/
theorem v0_eq : (V m c main_v0 : S500000x128.Idx → EReal)
    = shapeCast S500000x128 (argX m c) shapeCasts_S1000000x64_S500000x128 := by
  show StableHlo.after hostOps0 (fun b => m (c, b)) (Proc.devRef .tc main_v0) = _
  after_results
  rfl

/-- `w` as a row, stacked twice, flattened to `128` lanes. -/
theorem v3_eq : (V m c main_v3 : S128.Idx → EReal)
    = shapeCast S128
        (broadcastInDim S2x64 ![0, 1] bcast_S1x64_S2x64_0_1
          (shapeCast S1x64 (argW m c) shapeCasts_S64_S1x64))
        shapeCasts_S2x64_S128 := by
  show StableHlo.after hostOps0 (fun b => m (c, b)) (Proc.devRef .tc main_v3) = _
  after_results
  rfl

/-- `λ`, then the zeros. -/
theorem v5_eq : (V m c main_v5 : S1x128.Idx → EReal)
    = concatenate S1x128 1 [⟨S1x64, (argL m c)⟩, ⟨S1x64, zeros⟩]
        concatenates_S1x64_S1x64_S1x128_d1 := by
  show StableHlo.after hostOps0 (fun b => m (c, b)) (Proc.devRef .tc main_v5) = _
  after_results

/-- The zeros, then `λ`. -/
theorem v6_eq : (V m c main_v6 : S1x128.Idx → EReal)
    = concatenate S1x128 1 [⟨S1x64, zeros⟩, ⟨S1x64, (argL m c)⟩]
        concatenates_S1x64_S1x64_S1x128_d1 := by
  show StableHlo.after hostOps0 (fun b => m (c, b)) (Proc.devRef .tc main_v6) = _
  after_results

/-! ## The four arrays at an index -/

/-- Entry `(R, l)` of the reshaped `X` is `X[2R + l / 64, l % 64]`: both sit at row-major position `128 R + l`. -/
theorem v0_apply (R : Fin 500000) (l : Fin 128) :
    ((V m c main_v0 : S500000x128.Idx → EReal) (ix2 R l) : EReal)
      = (argX m c)
          (ix2 (⟨2 * R.val + l.val / 64, by omega⟩ : Fin 1000000) (⟨l.val % 64, by omega⟩ : Fin 64)) := by
  refine (congrFun (v0_eq m c) (ix2 R l)).trans ?_
  refine shapeCast_apply (s := S1000000x64) (t := S500000x128) _ _ _ _ ?_
  rw [Shape.rowMajor_val_two, Shape.rowMajor_val_two]
  show (2 * R.val + l.val / 64) * 64 + l.val % 64 = R.val * 128 + l.val
  omega

/-- Lane `l` of the tiled scales is `w[l % 64]`: lane `l` is entry `(l / 64, l % 64)` of the stacked `[2, 64]` array,
    whose rows are both the row `[1, 64]` form of `w`. -/
theorem v3_apply (l : Fin 128) :
    ((V m c main_v3 : S128.Idx → EReal) (ix1 l) : EReal)
      = (argW m c) (ix1 (⟨l.val % 64, by omega⟩ : Fin 64)) := by
  refine (congrFun (v3_eq m c) (ix1 l)).trans ?_
  refine (shapeCast_apply (s := S2x64) (t := S128) _ _ (ix1 l) (ix2 (⟨l.val / 64, by omega⟩ : Fin 2) (⟨l.val % 64, by omega⟩ : Fin 64)) ?_).trans ?_
  · rw [Shape.rowMajor_val_two, Shape.rowMajor_val_one]
    show l.val / 64 * 64 + l.val % 64 = l.val
    omega
  refine (broadcastInDim_apply (![0, 1] : Fin 2 → Fin S2x64.rank) bcast_S1x64_S2x64_0_1 _ _
    (ix2 (0 : Fin 1) (⟨l.val % 64, by omega⟩ : Fin 64)) (fun a => ?_)).trans ?_
  · match a with
    | ⟨0, _⟩ => rfl
    | ⟨1, _⟩ => rfl
  refine shapeCast_apply (s := S64) (t := S1x64) _ _ _ _ ?_
  rw [Shape.rowMajor_val_one, Shape.rowMajor_val_two]
  show l.val % 64 = 0 * 64 + l.val % 64
  omega

/-- Lane `l` of "`λ`, then zeros" is `λ[0, l % 64]` on the low half and `0` on the high half. -/
theorem v5_apply (l : Fin 128) :
    ((V m c main_v5 : S1x128.Idx → EReal) (ix2 (0 : Fin 1) l) : EReal)
      = if l.val / 64 = 0 then (argL m c)
          (ix2 (0 : Fin 1) (⟨l.val % 64, by omega⟩ : Fin 64)) else (0 : EReal) := by
  refine (congrFun (v5_eq m c) (ix2 (0 : Fin 1) l)).trans ?_
  by_cases hl : l.val < 64
  · rw [if_pos (by omega)]
    refine concatenate_pair_apply_left (1 : Fin S1x128.rank) _ _ concatenates_S1x64_S1x64_S1x128_d1 (ix2 (0 : Fin 1) l) rfl
      (ix2 (0 : Fin 1) (⟨l.val % 64, by omega⟩ : Fin 64)) (fun b => ?_)
    match b with
    | ⟨0, _⟩ => rfl
    | ⟨1, _⟩ => show l.val % 64 = l.val; omega
  · rw [if_neg (by omega)]
    refine (concatenate_pair_apply_right (1 : Fin S1x128.rank) _ _ concatenates_S1x64_S1x64_S1x128_d1 (ix2 (0 : Fin 1) l) rfl rfl
      (ix2 (0 : Fin 1) (⟨l.val % 64, by omega⟩ : Fin 64)) (fun b hb => ?_) ?_).trans (zeros_apply _)
    · match b with
      | ⟨0, _⟩ => rfl
      | ⟨1, _⟩ => exact absurd rfl hb
    · show l.val % 64 + 64 = l.val
      omega

/-- Lane `l` of "zeros, then `λ`" is `0` on the low half and `λ[0, l % 64]` on the high half. -/
theorem v6_apply (l : Fin 128) :
    ((V m c main_v6 : S1x128.Idx → EReal) (ix2 (0 : Fin 1) l) : EReal)
      = if l.val / 64 = 1 then (argL m c)
          (ix2 (0 : Fin 1) (⟨l.val % 64, by omega⟩ : Fin 64)) else (0 : EReal) := by
  refine (congrFun (v6_eq m c) (ix2 (0 : Fin 1) l)).trans ?_
  by_cases hl : l.val < 64
  · rw [if_neg (by omega)]
    refine (concatenate_pair_apply_left (1 : Fin S1x128.rank) _ _ concatenates_S1x64_S1x64_S1x128_d1 (ix2 (0 : Fin 1) l) rfl
      (ix2 (0 : Fin 1) (⟨l.val % 64, by omega⟩ : Fin 64)) (fun b => ?_)).trans (zeros_apply _)
    match b with
    | ⟨0, _⟩ => rfl
    | ⟨1, _⟩ => show l.val % 64 = l.val; omega
  · rw [if_pos (by omega)]
    refine concatenate_pair_apply_right (1 : Fin S1x128.rank) _ _ concatenates_S1x64_S1x64_S1x128_d1 (ix2 (0 : Fin 1) l) rfl rfl
      (ix2 (0 : Fin 1) (⟨l.val % 64, by omega⟩ : Fin 64)) (fun b hb => ?_) ?_
    · match b with
      | ⟨0, _⟩ => rfl
      | ⟨1, _⟩ => exact absurd rfl hb
    · show l.val % 64 + 64 = l.val
      omega

end Cert.PowerProduct.HostPrefix

end
-- ==== Proof.PackedArray.lean ====
/-
  From blocks to the array: after the grid has run, the packed array `[500000, 2]` holds row `2R + h`'s value at `(R, h)`.

  Grid point `t` (of 50) is handed rows `10000 t … 10000 t + 9999` of the packed input (the other three inputs whole, the
  same at every point) and writes back rows `10000 t …` of the packed output. What it writes back is the body's block
  function of those inputs; with the inputs read back to the program's arguments (packed row `R`, lane `l` is
  `X[2R + l / 64, l % 64]`; lane scale `w[l % 64]`; exponents living on one half of the lanes) the block function at `(r, h)`
  is, by the lane identity, row `2 (10000 t + r) + h`'s value: block `t` of ONE array-wide function. The 50 blocks tile
  the array (row `R` lies in block `R / 10000`), so the array ends holding that function.
-/
import proofs.«127066_j89747636617463_2_alg».proof.Proof.BodyValue
import proofs.«127066_j89747636617463_2_alg».proof.Proof.HostPrefix

set_option maxRecDepth 16384

noncomputable section

open scoped BigOperators

namespace Cert.PowerProduct.Packed

open Idealize.ShloMosaic Idealize.ShloMosaic.ValueIdx Idealize.ShloMosaic.TcCoe Idealize.SL.Sem
open Idealize.ShloMosaic.Pipeline (Dat)
open Cert.KernelIdeal Cert.KernelIdeal.Gen Cert.PowerProduct Cert.PowerProduct.Body Cert.PowerProduct.HostPrefix

/-- The block function of block `B`'s inputs, read back to the arguments: entry `(r, h)` is row `2 (10000 B + r) + h`'s value. -/
theorem blockValue_apply (X : (⟨2, ![1000000, 64]⟩ : Shape).Idx → EReal) (W : (⟨1, ![64]⟩ : Shape).Idx → EReal)
    (L : (⟨2, ![1, 64]⟩ : Shape).Idx → EReal)
    (x0 : Vec Ideal S10000x128 .f32) (x1 : Vec Ideal S128 .f32) (x2 x3 : Vec Ideal S1x128 .f32) (B : Fin 50)
    (h0 : ∀ (r : Fin 10000) (l : Fin 128), x0 (ix2 r l)
      = X (ix2 (⟨2 * (10000 * B.val + r.val) + l.val / 64, by omega⟩ : Fin 1000000) (⟨l.val % 64, by omega⟩ : Fin 64)))
    (h1 : ∀ l : Fin 128, x1 (ix1 l) = W (ix1 (⟨l.val % 64, by omega⟩ : Fin 64)))
    (h2 : ∀ l : Fin 128, x2 (ix2 (0 : Fin 1) l)
      = if l.val / 64 = 0 then L (ix2 (0 : Fin 1) (⟨l.val % 64, by omega⟩ : Fin 64)) else 0)
    (h3 : ∀ l : Fin 128, x3 (ix2 (0 : Fin 1) l)
      = if l.val / 64 = 1 then L (ix2 (0 : Fin 1) (⟨l.val % 64, by omega⟩ : Fin 64)) else 0)
    (r : Fin 10000) (h : Fin 2) :
    blockValue x0 x1 x2 x3 (ix2 r h) = row X W L ⟨2 * (10000 * B.val + r.val) + h.val, by omega⟩ := by
  unfold blockValue
  show blockRow x0 x1 (if h.val = 0 then x2 else x3) r = _
  unfold blockRow
  refine lanes_eq_row X W L ⟨10000 * B.val + r.val, by omega⟩ h _ _ _ (fun l => h0 r l) h1 (fun l => ?_)
  by_cases hh : h.val = 0
  · rw [if_pos hh, h2, hh]
  · have h1' : h.val = 1 := by omega
    rw [if_neg hh, h3, h1']

variable (m : (ℓ : Loc nD τ sig) → Buf (Elt Ideal) ℓ) (c : Dev nD)

/-- The grid has 50 points. -/
theorem pt_lt (t : Fin cfg0.N) : t.val < 50 := lt_of_lt_of_eq t.isLt N_0

/-- The printed index maps, decided over the grid: the packed input and the output move with the point along the rows;
    the other three inputs stay at block 0. -/
theorem idx_facts : ∀ t : Fin cfg0.N, win0_0.index t (0 : Fin 2) = t.val ∧ win0_0.index t (1 : Fin 2) = 0
    ∧ win0_1.index t (0 : Fin 1) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Point `t`'s block of the packed input, read back to `X`. -/
theorem in0 (t : Fin cfg0.N) (r : Fin 10000) (l : Fin 128) :
    iblk m c 0 t (ix2 r l)
      = argX m c (ix2 (⟨2 * (10000 * t.val + r.val) + l.val / 64, by have := pt_lt t; omega⟩ : Fin 1000000) (⟨l.val % 64, by omega⟩ : Fin 64)) := by
  refine Eq.trans ?_ (v0_apply m c ⟨10000 * t.val + r.val, by have := pt_lt t; omega⟩ l)
  show V m c main_v0 (((cfg0.win 0).blk t).view.emb (ix2 r l)) = V m c main_v0 _
  refine congrArg (V m c main_v0) (funext fun a => Fin.ext ?_)
  obtain ⟨e0, e1, -⟩ := idx_facts t
  match a with
  | ⟨0, _⟩ =>
    show win0_0.index t (0 : Fin 2) * 10000 + 1 * r.val = 10000 * t.val + r.val
    omega
  | ⟨1, _⟩ =>
    show win0_0.index t (1 : Fin 2) * 128 + 1 * l.val = l.val
    omega

/-- The lane scales every point is handed, read back to `w`. -/
theorem in1 (t : Fin cfg0.N) (l : Fin 128) :
    iblk m c 1 t (ix1 l) = argW m c (ix1 (⟨l.val % 64, by omega⟩ : Fin 64)) := by
  refine Eq.trans ?_ (v3_apply m c l)
  show V m c main_v3 (((cfg0.win 1).blk t).view.emb (ix1 l)) = V m c main_v3 _
  refine congrArg (V m c main_v3) (funext fun a => Fin.ext ?_)
  obtain ⟨-, -, e2, -⟩ := idx_facts t
  match a with
  | ⟨0, _⟩ =>
    show win0_1.index t (0 : Fin 1) * 128 + 1 * l.val = l.val
    omega

/-- The low-half exponents every point is handed, read back to `λ`. -/
theorem in2 (t : Fin cfg0.N) (l : Fin 128) :
    iblk m c 2 t (ix2 (0 : Fin 1) l)
      = if l.val / 64 = 0 then argL m c (ix2 (0 : Fin 1) (⟨l.val % 64, by omega⟩ : Fin 64)) else 0 := by
  refine Eq.trans ?_ (v5_apply m c l)
  show V m c main_v5 (((cfg0.win 2).blk t).view.emb (ix2 (0 : Fin 1) l)) = V m c main_v5 _
  refine congrArg (V m c main_v5) (funext fun a => Fin.ext ?_)
  obtain ⟨-, -, -, e3, e4, -⟩ := idx_facts t
  match a with
  | ⟨0, _⟩ =>
    show win0_2.index t (0 : Fin 2) * 1 + 1 * 0 = 0
    omega
  | ⟨1, _⟩ =>
    show win0_2.index t (1 : Fin 2) * 128 + 1 * l.val = l.val
    omega

/-- The high-half exponents every point is handed, read back to `λ`. -/
theorem in3 (t : Fin cfg0.N) (l : Fin 128) :
    iblk m c 3 t (ix2 (0 : Fin 1) l)
      = if l.val / 64 = 1 then argL m c (ix2 (0 : Fin 1) (⟨l.val % 64, by omega⟩ : Fin 64)) else 0 := by
  refine Eq.trans ?_ (v6_apply m c l)
  show V m c main_v6 (((cfg0.win 3).blk t).view.emb (ix2 (0 : Fin 1) l)) = V m c main_v6 _
  refine congrArg (V m c main_v6) (funext fun a => Fin.ext ?_)
  obtain ⟨-, -, -, -, -, e5, e6, -⟩ := idx_facts t
  match a with
  | ⟨0, _⟩ =>
    show win0_3.index t (0 : Fin 2) * 1 + 1 * 0 = 0
    omega
  | ⟨1, _⟩ =>
    show win0_3.index t (1 : Fin 2) * 128 + 1 * l.val = l.val
    omega

/-- WHAT POINT `t` WRITES BACK is block `t` of the array of row values laid out two to a row. -/
theorem flushed_eq (t : Fin cfg0.N) :
    (dats m 0 c).flushed 4 t
      = ((cfg0.win 4).blk t).view.read (Elt Ideal) (packed (argX m c) (argW m c) (argL m c)) := by
  show (cfg0.win 4).cut (grid0.coords t) ((dats m 0 c).after 4 t) = _
  rw [after0_4]
  unfold outsAt0
  rw [Body.out_eq]
  funext y
  obtain ⟨r, h, rfl⟩ : ∃ (r : Fin 10000) (h : Fin 2), y = ix2 r h := ⟨y 0, y 1, eq_ix2 y⟩
  show blockValue (iblk m c 0 t) (iblk m c 1 t) (iblk m c 2 t) (iblk m c 3 t) (ix2 r h)
    = packed (argX m c) (argW m c) (argL m c) (((cfg0.win 4).blk t).view.emb (ix2 r h))
  refine (blockValue_apply (argX m c) (argW m c) (argL m c) _ _ _ _ ⟨t.val, pt_lt t⟩
    (in0 m c t) (in1 m c t) (in2 m c t) (in3 m c t) r h).trans ?_
  unfold packed
  refine congrArg (row (argX m c) (argW m c) (argL m c)) (Fin.ext ?_)
  obtain ⟨-, -, -, -, -, -, -, e7, e8⟩ := idx_facts t
  show 2 * (10000 * t.val + r.val) + h.val
    = 2 * (win0_4.index t (0 : Fin 2) * 10000 + 1 * r.val) + (win0_4.index t (1 : Fin 2) * 2 + 1 * h.val)
  omega

/-- An index of the packed array is in point `t`'s block iff each coordinate is in the block's range on its axis. -/
theorem mem_blk (t : Fin cfg0.N) (i : S500000x2.Idx) :
    i ∈ ((cfg0.win 4).blk t).view.set ↔ ∀ a : Fin 2, win0_4.index t a * S10000x2.size a ≤ (i a).val
      ∧ (i a).val < win0_4.index t a * S10000x2.size a + S10000x2.size a := by
  show i ∈ ((View.whole main_v7).slice (win0_4.rect t)).set ↔ _
  rw [View.set_slice_whole, Rect.mem_set_unit]
  exact Iff.rfl

/-- The 50 blocks tile the packed array: row `R` lies in the block of point `R / 10000`. -/
theorem cover (i : S500000x2.Idx) :
    ∃ t : Fin cfg0.N, (cfg0.win 4).flush t = true ∧ i ∈ ((cfg0.win 4).blk t).view.set := by
  have hi0 : (i 0).val < 500000 := (i 0).isLt
  have hi1 : (i 1).val < 2 := (i 1).isLt
  obtain ⟨t, ht⟩ : ∃ t : Fin cfg0.N, t.val = (i 0).val / 10000 :=
    ⟨⟨(i 0).val / 10000, lt_of_lt_of_eq (by omega : (i 0).val / 10000 < 50) N_0.symm⟩, rfl⟩
  obtain ⟨-, -, -, -, -, -, -, e7, e8⟩ := idx_facts t
  refine ⟨t, flush0_4 t, ?_⟩
  rw [mem_blk]
  intro a
  match a with
  | ⟨0, _⟩ =>
    show win0_4.index t (0 : Fin 2) * 10000 ≤ (i 0).val ∧ (i 0).val < win0_4.index t (0 : Fin 2) * 10000 + 10000
    omega
  | ⟨1, _⟩ =>
    show win0_4.index t (1 : Fin 2) * 2 ≤ (i 1).val ∧ (i 1).val < win0_4.index t (1 : Fin 2) * 2 + 2
    omega

/-- THE PACKED ARRAY after the grid has run. -/
theorem final : (dats m 0 c).arrAt 4 cfg0.N = packed (argX m c) (argW m c) (argL m c) :=
  (dats m 0 c).arrAt_eq_of_cover 4 _ (fun t _ => flushed_eq m c t) (cover)

end Cert.PowerProduct.Packed

end
-- ==== Proof.Tail.lean ====
/-
  The last step of the packed program: the [500000, 2] array of row values, two to a row, is reshaped to [1000000, 1].

  A reshape keeps the row-major position. Entry (n, 0) of the [1000000, 1] array sits at position n·1 + 0 = n, and
  entry (R, h) of the [500000, 2] array sits at position 2R + h; so entry (n, 0) of the result is entry (n / 2, n % 2)
  of the packed array, because 2·(n / 2) + n % 2 = n.
-/
import proofs.«127066_j89747636617463_2_alg».proof.Proof.Gen.KernelIdeal.Frame
import Idealize.ShloMosaic.Lib.StableHlo.Run
import Idealize.ShloMosaic.Lib.Pipeline.Value
import Idealize.ShloMosaic.Lib.ValueIdx

noncomputable section

namespace Cert.PowerProduct.Tail

open Idealize.ShloMosaic Idealize.ShloMosaic.ValueIdx Cert.KernelIdeal Cert.KernelIdeal.Gen

variable (m : (ℓ : Loc nD τ sig) → Buf (Elt Ideal) ℓ) (c : Dev nD)

set_option maxHeartbeats 400000 in
/-- The final [1000000, 1] buffer is the reshape of the packed [500000, 2] array as the grid's last write-back leaves it. -/
theorem tail_eq : Pipeline.afterTail₀ cfgs (dats m) 0 (V0 m) [hostOps1] c main_v8
    = shapeCast S1000000x1 ((dats m 0 c).arrAt 4 cfg0.N) shapeCasts_S500000x2_S1000000x1 := by
  unfold Pipeline.afterTail₀
  show StableHlo.after hostOps1 _ (Proc.devRef .tc main_v8) = _
  open StableHlo in after_results
  have hw : Pipeline.withArrays (cfgs 0).spec c (V0 m c) (fun w => (dats m 0 c).arrAt w (cfgs 0).N) (Proc.tc.devRef main_v7)
      = (dats m 0 c).arrAt 4 cfg0.N :=
    Pipeline.withArrays_arr spec0 launch0.win.arr_inj c _ _ 4
  rw [hw]
  rfl

set_option maxHeartbeats 400000 in
/-- Read at entry (n, 0): the packed array at (n / 2, n % 2), the entry with the same row-major position. -/
theorem tail_apply (i : S1000000x1.Idx) :
    Pipeline.afterTail₀ cfgs (dats m) 0 (V0 m) [hostOps1] c main_v8 i
      = (dats m 0 c).arrAt 4 cfg0.N (ix2 (⟨(i 0).val / 2, by have := idx2_lt0 i; omega⟩ : Fin 500000) (⟨(i 0).val % 2, by omega⟩ : Fin 2)) := by
  rw [tail_eq]
  refine shapeCast_apply (s := S500000x2) (t := S1000000x1) _ _ i _ ?_
  show ((⟨2, ![500000, 2]⟩ : Shape).rowMajor (ix2 _ _)).val = ((⟨2, ![1000000, 1]⟩ : Shape).rowMajor i).val
  rw [Shape.rowMajor_val_two, Shape.rowMajor_val_two]
  show (i 0).val / 2 * 2 + (i 0).val % 2 = (i 0).val * 1 + (i 1).val
  have := idx2_lt1 i
  omega

end Cert.PowerProduct.Tail

end
-- ==== Proof.lean ====
/-
  The certificate's five claims.

  Both idealized programs compute, for every row `n` of `X`, the extended real
  `exp( Σ_{k < 64} log(|X[n, k] · w[k]| + ε) · λ[0, k] )` (Proof/Spec.lean). The reference does so directly (Proof/RefTerm.lean).
  The packed program lays two rows side by side in 128 lanes, runs a grid of 50 blocks whose body sums all 128 lanes against
  exponents that vanish on the other row's half (Proof/ChunkValue.lean, Proof/BodyValue.lean), so that the packed array ends
  holding row `2R + h`'s value at `(R, h)` (Proof/HostPrefix.lean, Proof/PackedArray.lean), and reshapes that array to one
  value a row (Proof/Tail.lean): entry `(n, 0)` is entry `(n / 2, n % 2)` of the packed array, row `2 (n / 2) + n % 2 = n`'s value.
  The identity that joins the two arrangements is `a · 0 = 0` on the extended reals, which holds for every `a`: the
  precondition (finite inputs) is not used by the value claim.
  Each program terminates without a fault and leaves its arguments unchanged; nothing was rewritten between the kernel's
  program as printed and its idealization, so the preservation claim is trivial.
-/
import proofs.«127066_j89747636617463_2_alg».proof.Defs
import proofs.«127066_j89747636617463_2_alg».proof.Proof.Gen.Kernel
import proofs.«127066_j89747636617463_2_alg».proof.Proof.Gen.Kernel.Frame
import proofs.«127066_j89747636617463_2_alg».proof.Proof.Gen.KernelIdeal
import proofs.«127066_j89747636617463_2_alg».proof.Proof.Gen.KernelIdeal.Frame
import proofs.«127066_j89747636617463_2_alg».proof.Proof.Gen.ReferenceIdeal
import proofs.«127066_j89747636617463_2_alg».proof.Proof.Gen.ReferenceIdeal.Run
import proofs.«127066_j89747636617463_2_alg».proof.Proof.Gen.ReferenceIdeal.Read
import proofs.«127066_j89747636617463_2_alg».proof.Proof.Gen.Pre_finite_inputs
import proofs.«127066_j89747636617463_2_alg».proof.Proof.RefTerm
import proofs.«127066_j89747636617463_2_alg».proof.Proof.PackedArray
import proofs.«127066_j89747636617463_2_alg».proof.Proof.Tail
import Idealize.ShloMosaic.Adequacy
import Idealize.ShloMosaic.Init

noncomputable section

namespace Cert.Proof

open Idealize.ShloMosaic Idealize.ShloMosaic.ValueIdx Idealize.ShloMosaic.TcCoe Idealize.SL.Sem Cert.PowerProduct

/-- The kernel's program as printed runs and keeps its arguments. -/
theorem frame_kernel [hPre : Cert.Pre_finite_inputs.Facts] [hK : Cert.Kernel.Facts] : Cert.frame_Kernel :=
  fun m ρ _ => Cert.Kernel.Gen.frame m ρ

/-- Its idealization runs and keeps its arguments. -/
theorem frame_kernelIdeal [hPre : Cert.Pre_finite_inputs.Facts] [hK : Cert.KernelIdeal.Facts] : Cert.frame_KernelIdeal :=
  fun m ρ _ => Cert.KernelIdeal.Gen.frame m ρ

/-- The reference runs and keeps its arguments: its run with the result dropped. -/
theorem frame_reference [hPre : Cert.Pre_finite_inputs.Facts] [hR : Cert.ReferenceIdeal.Facts] : Cert.frame_ReferenceIdeal :=
  fun m ρ _ => (θ_run Cert.ReferenceIdeal.defs _ _).mono (fun _ h c => (h c).2) (Cert.ReferenceIdeal.Value.run (F := Ideal) m ρ)

/-- No operation was rewritten by the idealization. -/
theorem preserves : Cert.preserves_Kernel_KernelIdeal := trivial

section Value

open Cert.KernelIdeal Cert.KernelIdeal.Gen

/-- Entry `(n, 0)` of the packed program's result is row `n`'s value. -/
theorem kernel_result (m : (ℓ : Loc nD τ sig) → Buf (Elt Ideal) ℓ) (c : Dev nD) :
    Pipeline.afterTail₀ cfgs (dats m) 0 (V0 m) [hostOps1] c main_v8
      = result (m ((c : Thread nD τ).loc main_arg0)) (m ((c : Thread nD τ).loc main_arg1)) (m ((c : Thread nD τ).loc main_arg2)) := by
  funext i
  rw [Tail.tail_apply, Packed.final]
  unfold packed result
  refine congrArg (row _ _ _) (Fin.ext ?_)
  show 2 * ((i 0).val / 2) + (i 0).val % 2 = (i 0).val
  omega

end Value

/-- From memories that agree on the arguments both idealized programs end with the same result array. -/
theorem algebraic [hPre : Cert.Pre_finite_inputs.Facts] [hK : Cert.KernelIdeal.Facts] [hR : Cert.ReferenceIdeal.Facts] :
    Cert.algebraic_KernelIdeal_ReferenceIdeal := by
  intro m ρ m' ρ' _ hagree
  refine ⟨fun c => result (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)), ?_, ?_⟩
  · refine (θ_run Cert.KernelIdeal.defs _ _).mono (fun r h c => ?_) (Cert.KernelIdeal.Gen.run_main m ρ)
    exact ⟨((h c).2 Cert.KernelIdeal.main_v8 (Pipeline.mem_restRefs_of Cert.KernelIdeal.main_v8 (by decide) (by decide))).trans (kernel_result m c),
      ((h c).2 Cert.KernelIdeal.main_arg0 (Pipeline.mem_restRefs_of Cert.KernelIdeal.main_arg0 (by decide) (by decide))).trans (Cert.KernelIdeal.Gen.W_main_arg0 m (Cert.KernelIdeal.Gen.dats m) c),
      ((h c).2 Cert.KernelIdeal.main_arg1 (Pipeline.mem_restRefs_of Cert.KernelIdeal.main_arg1 (by decide) (by decide))).trans (Cert.KernelIdeal.Gen.W_main_arg1 m (Cert.KernelIdeal.Gen.dats m) c),
      ((h c).2 Cert.KernelIdeal.main_arg2 (Pipeline.mem_restRefs_of Cert.KernelIdeal.main_arg2 (by decide) (by decide))).trans (Cert.KernelIdeal.Gen.W_main_arg2 m (Cert.KernelIdeal.Gen.dats m) c)⟩
  · refine (θ_run Cert.ReferenceIdeal.defs _ _).mono (fun r h c => ⟨?_, (h c).2⟩) (Cert.ReferenceIdeal.Value.run (F := Ideal) m' ρ')
    refine (h c).1.trans ((Cert.ReferenceIdeal.Read.val_main_v9_eq _ _ _).trans ((Ref.result_eq _ _ _).trans ?_))
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
